-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S16x128 : Shape := ⟨2, ![16, 128]⟩
abbrev S2x640000 : Shape := ⟨2, ![2, 640000]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S200000x16 .f32) (main_arg1 : FVec F S16x128 .f32) (main_arg2 : IVec S2x640000 32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S200000x16 : Shape := ⟨2, ![200000, 16]⟩
abbrev S16x128 : Shape := ⟨2, ![16, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x16 : Shape := ⟨2, ![640000, 16]⟩
abbrev S200000 : Shape := ⟨1, ![200000]⟩
abbrev S200000x1 : Shape := ⟨2, ![200000, 1]⟩
abbrev S200000x128 : Shape := ⟨2, ![200000, 128]⟩
abbrev S10000x16 : Shape := ⟨2, ![10000, 16]⟩
abbrev S10000x1 : Shape := ⟨2, ![10000, 1]⟩
abbrev S10000x128 : Shape := ⟨2, ![10000, 128]⟩

abbrev nBuf : Space → Nat
  | .hbm => 34
  | .vmem => 7
  | .smem => 0
  | _ => 0

abbrev bufTy : (tb : Table) → Fin (tcTables nBuf tb) → BufTy
  | .hbm, ⟨0, _⟩ => ⟨S200000x16, .f32⟩
  | .hbm, ⟨1, _⟩ => ⟨S16x128, .f32⟩
  | .hbm, ⟨2, _⟩ => ⟨S2x640000, .i32⟩
  | .hbm, ⟨3, _⟩ => ⟨S1x640000, .i32⟩
  | .hbm, ⟨4, _⟩ => ⟨S640000, .i32⟩
  | .hbm, ⟨5, _⟩ => ⟨S1x640000, .i32⟩
  | .hbm, ⟨6, _⟩ => ⟨S640000, .i32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x16, .f32⟩
  | .hbm, ⟨16, _⟩ => ⟨S_, .f32⟩
  | .hbm, ⟨17, _⟩ => ⟨S200000x16, .f32⟩
  | .hbm, ⟨18, _⟩ => ⟨S640000x1, .i32⟩
  | .hbm, ⟨19, _⟩ => ⟨S200000x16, .f32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S200000, .f32⟩
  | .hbm, ⟨24, _⟩ => ⟨S640000x1, .i32⟩
  | .hbm, ⟨25, _⟩ => ⟨S200000, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S200000x1, .f32⟩
  | .hbm, ⟨33, _⟩ => ⟨S200000x128, .f32⟩
  | .local _ .vmem, ⟨0, _⟩ => ⟨S10000x16, .f32⟩
  | .local _ .vmem, ⟨1, _⟩ => ⟨S10000x16, .f32⟩
  | .local _ .vmem, ⟨2, _⟩ => ⟨S10000x1, .f32⟩
  | .local _ .vmem, ⟨3, _⟩ => ⟨S10000x1, .f32⟩
  | .local _ .vmem, ⟨4, _⟩ => ⟨S16x128, .f32⟩
  | .local _ .vmem, ⟨5, _⟩ => ⟨S10000x128, .f32⟩
  | .local _ .vmem, ⟨6, _⟩ => ⟨S10000x128, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S200000x16 : S_.BroadcastsInDim S200000x16 (![] : Fin 0 → Fin S200000x16.rank)
  bcast_S_S200000 : S_.BroadcastsInDim S200000 (![] : Fin 0 → Fin S200000.rank)
  shapeCasts_S200000_S200000x1 : S200000.ShapeCasts S200000x1
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S10000x128_S10000x128_0_0 : ∀ a, (![0, 0] : Fin 2 → Nat) a + S10000x128.size a ≤ S10000x128.size a
  h_S10000x128 : 0 < S10000x128.numel
  gather_S200000x16_S640000x1_S640000x16_1_0_n_n_0_1_116_wf : GatherDims.WF S200000x16 S640000x1 S640000x16 [1] [0] [] [0] [] 1 ![1, 16]
  scatter_S200000x16_S640000x1_S640000x16_1_0_0_1_wf : ScatterDims.WF S200000x16 S640000x1 S640000x16 [1] [0] [0] 1
  scatter_S200000_S640000x1_S640000_n_0_0_1_wf : ScatterDims.WF S200000 S640000x1 S640000 [] [0] [0] 1
  dot_S10000x16_S16x128_S10000x128_1_0_0_1_n_n_wf : DotDims.WF S10000x16 S16x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S200000x16.size a
  hwx0_0 : ∀ i : grid0.Coords, EltTy.bits .f32 = 32 ∨ (Rect.block (s := S200000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S200000x1.size a
  hwx0_1 : ∀ i : grid0.Coords, EltTy.bits .f32 = 32 ∨ (Rect.block (s := S200000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S200000x128.size a
  hwx0_3 : ∀ i : grid0.Coords, EltTy.bits .f32 = 32 ∨ (Rect.block (s := S200000x128) S10000x128.size (cc0_transform_3 i) (hinb0_3 i)).WholeWords (EltTy.packing .f32)

variable [Facts₀]

def gather_S200000x16_S640000x1_S640000x16_1_0_n_n_0_1_116 : GatherDims S200000x16 S640000x1 S640000x16 where
  offsetDims := [1]
  collapsedSliceDims := [0]
  operandBatchingDims := []
  startIndicesBatchingDims := []
  startIndexMap := [0]
  indexVectorDim := 1
  sliceSizes := ![1, 16]
  wf := gather_S200000x16_S640000x1_S640000x16_1_0_n_n_0_1_116_wf
def scatter_S200000x16_S640000x1_S640000x16_1_0_0_1 : ScatterDims S200000x16 S640000x1 S640000x16 where
  updateWindowDims := [1]
  insertedWindowDims := [0]
  scatterDimsToOperandDims := [0]
  indexVectorDim := 1
  wf := scatter_S200000x16_S640000x1_S640000x16_1_0_0_1_wf
def scatter_S200000_S640000x1_S640000_n_0_0_1 : ScatterDims S200000 S640000x1 S640000 where
  updateWindowDims := []
  insertedWindowDims := [0]
  scatterDimsToOperandDims := [0]
  indexVectorDim := 1
  wf := scatter_S200000_S640000x1_S640000_n_0_0_1_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf

abbrev win0_0 : Pipeline.Window sig grid0 :=
  Pipeline.Window.ofSpec (Memref.whole main_v13) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x16 : Shape := ⟨2, ![200000, 16]⟩
abbrev S16x128 : Shape := ⟨2, ![16, 128]⟩
abbrev S2x640000 : Shape := ⟨2, ![2, 640000]⟩
abbrev S200000x128 : Shape := ⟨2, ![200000, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S200000 : Shape := ⟨1, ![200000]⟩
abbrev S200000x1 : Shape := ⟨2, ![200000, 1]⟩

abbrev nBuf : Space → Nat
  | .hbm => 33
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S16x128, .f32⟩
  | .hbm, ⟨2, _⟩ => ⟨S2x640000, .i32⟩
  | .hbm, ⟨3, _⟩ => ⟨S200000x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S200000x128, .f32⟩
  | .hbm, ⟨19, _⟩ => ⟨S640000x1, .i32⟩
  | .hbm, ⟨20, _⟩ => ⟨S200000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S200000, .f32⟩
  | .hbm, ⟨25, _⟩ => ⟨S640000x1, .i32⟩
  | .hbm, ⟨26, _⟩ => ⟨S200000, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S200000x1, .f32⟩
  | .hbm, ⟨31, _⟩ => ⟨S200000x128, .f32⟩
  | .hbm, ⟨32, _⟩ => ⟨S200000x128, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  dot_S200000x16_S16x128_S200000x128_1_0_0_1_n_n_wf : DotDims.WF S200000x16 S16x128 S200000x128 [1] [0] [0] [1] [] []
  gather_S200000x128_S640000x1_S640000x128_1_0_n_n_0_1_1128_wf : GatherDims.WF S200000x128 S640000x1 S640000x128 [1] [0] [] [0] [] 1 ![1, 128]
  scatter_S200000x128_S640000x1_S640000x128_1_0_0_1_wf : ScatterDims.WF S200000x128 S640000x1 S640000x128 [1] [0] [0] 1
  scatter_S200000_S640000x1_S640000_n_0_0_1_wf : ScatterDims.WF S200000 S640000x1 S640000 [] [0] [0] 1

variable [Facts₀]

def dot_S200000x16_S16x128_S200000x128_1_0_0_1_n_n : DotDims S200000x16 S16x128 S200000x128 where
  lhsContracting := [1]
  rhsContracting := [0]
  lhsNonContracting := [0]
  rhsNonContracting := [1]
  lhsBatch := []
  rhsBatch := []
  wf := dot_S200000x16_S16x128_S200000x128_1_0_0_1_n_n_wf
def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def scatter_S200000x128_S640000x1_S640000x128_1_0_0_1 : ScatterDims S200000x128 S640000x1 S640000x128 where
  updateWindowDims := [1]
  insertedWindowDims := [0]
  scatterDimsToOperandDims := [0]
  indexVectorDim := 1
  wf := scatter_S200000x128_S640000x1_S640000x128_1_0_0_1_wf
def scatter_S200000_S640000x1_S640000_n_0_0_1 : ScatterDims S200000 S640000x1 S640000 where
  updateWindowDims := []
  insertedWindowDims := [0]
  scatterDimsToOperandDims := [0]
  indexVectorDim := 1
  wf := scatter_S200000_S640000x1_S640000_n_0_0_1_wf

class Facts : Prop extends Facts₀ where

variable [Facts]
-- ==== Proof.LibFinite.lean ====
import Idealize.ShloMosaic.PureOps.Ideal
import Idealize.ShloMosaic.PureOps.Ideal.Laws

/-!
# Finiteness of extended reals

General facts about the extended reals `EReal` used as idealized float values.

* `IsReal x` says that `x` is neither `⊤` nor `⊥`, that is, `x` is (the coercion of) a real number.
  It is closed under addition, subtraction, multiplication, negation, `max`, `min`, the absolute
  value `max x (-x)`, integer roundings extended to the infinities, finite sums, and suprema and
  infima over a nonempty finite type.  The sign of any extended real is real, clamping any extended
  real between two real bounds is real, and a quotient of reals by a nonzero real is real (and
  positive when both are positive).
* `a + (b - a) = b` for a real `a` and an arbitrary extended real `b`.
* The sign function written with two comparisons and two selections.
* The extended reals denoted by a few single-precision words.
* Folding `max` from `⊥` (resp. `min` from `⊤`) over a finite set is its supremum (resp. infimum).
-/

noncomputable section
namespace LibFinite
open Idealize.ShloMosaic

/-! ## Real (finite) extended reals -/

/-- An extended real is *real* when it is neither of the two infinities. -/
def IsReal (x : EReal) : Prop := x ≠ ⊤ ∧ x ≠ ⊥

/-- The coercion of a real number is real. -/
theorem IsReal.coe (r : ℝ) : IsReal (r : EReal) := ⟨EReal.coe_ne_top r, EReal.coe_ne_bot r⟩

theorem IsReal.zero : IsReal (0 : EReal) := by
  rw [← EReal.coe_zero]; exact IsReal.coe 0

theorem IsReal.one : IsReal (1 : EReal) := by
  rw [← EReal.coe_one]; exact IsReal.coe 1

/-- A real extended real is the coercion of some real number. -/
theorem IsReal.exists {x : EReal} (h : IsReal x) : ∃ r : ℝ, x = (r : EReal) := by
  induction x using EReal.rec with
  | bot => exact absurd rfl h.2
  | top => exact absurd rfl h.1
  | coe r => exact ⟨r, rfl⟩

theorem IsReal.add {x y : EReal} (hx : IsReal x) (hy : IsReal y) : IsReal (x + y) := by
  obtain ⟨a, rfl⟩ := hx.exists
  obtain ⟨b, rfl⟩ := hy.exists
  rw [← EReal.coe_add]; exact IsReal.coe _

theorem IsReal.sub {x y : EReal} (hx : IsReal x) (hy : IsReal y) : IsReal (x - y) := by
  obtain ⟨a, rfl⟩ := hx.exists
  obtain ⟨b, rfl⟩ := hy.exists
  rw [← EReal.coe_sub]; exact IsReal.coe _

theorem IsReal.mul {x y : EReal} (hx : IsReal x) (hy : IsReal y) : IsReal (x * y) := by
  obtain ⟨a, rfl⟩ := hx.exists
  obtain ⟨b, rfl⟩ := hy.exists
  rw [← EReal.coe_mul]; exact IsReal.coe _

theorem IsReal.neg {x : EReal} (hx : IsReal x) : IsReal (-x) := by
  obtain ⟨a, rfl⟩ := hx.exists
  rw [← EReal.coe_neg]; exact IsReal.coe _

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The absolute value `max x (-x)` of a real is real. -/
theorem IsReal.abs {x : EReal} (hx : IsReal x) : IsReal (Max.max x (-x)) :=
  IsReal.max hx hx.neg

/-- A rounding to the integers, extended by fixing the infinities, keeps reals real. -/
theorem IsReal.liftRound (f : ℝ → ℤ) {x : EReal} (hx : IsReal x) : IsReal (Ideal.liftRound f x) := by
  obtain ⟨a, rfl⟩ := hx.exists
  rw [Ideal.liftRound_coe]; exact IsReal.coe _

/-- The sign of any extended real is one of `-1`, `0`, `1`, hence real. -/
theorem IsReal.sign (x : EReal) : IsReal (Ideal.sign x) := by
  induction x using EReal.rec with
  | bot => rw [Ideal.sign_bot]; exact IsReal.one.neg
  | top => rw [Ideal.sign_top]; exact IsReal.one
  | coe r => rw [Ideal.sign_coe]; exact IsReal.coe _

/-- Clamping any extended real (an infinite one too) between two real bounds gives a real: the
    result is at most `hi`, and at least `min hi lo`. -/
theorem IsReal.clamp {lo hi : EReal} (x : EReal) (hlo : IsReal lo) (hhi : IsReal hi) :
    IsReal (Min.min hi (Max.max lo x)) := by
  refine ⟨ne_top_of_le_ne_top hhi.1 (min_le_left _ _), ?_⟩
  exact ne_bot_of_le_ne_bot (IsReal.min hhi hlo).2 (min_le_min_left hi (le_max_left lo x))

/-- The quotient of a real by a nonzero real is real. -/
theorem IsReal.div {x y : EReal} (hx : IsReal x) (hy : IsReal y) (h0 : y ≠ 0) :
    IsReal (Ideal.div x y) := by
  obtain ⟨b, rfl⟩ := hy.exists
  have hb : b ≠ 0 := fun h => h0 (by rw [h, EReal.coe_zero])
  rw [Ideal.div_coe hb]
  exact IsReal.mul hx (IsReal.coe _)

/-- The quotient of two positive reals is a positive real. -/
theorem IsReal.div_pos {x y : EReal} (hx : IsReal x) (hy : IsReal y) (hx0 : 0 < x) (hy0 : 0 < y) :
    IsReal (Ideal.div x y) ∧ 0 < Ideal.div x y := by
  refine ⟨IsReal.div hx hy hy0.ne', ?_⟩
  obtain ⟨a, rfl⟩ := hx.exists
  obtain ⟨b, rfl⟩ := hy.exists
  have ha : 0 < a := EReal.coe_pos.mp hx0
  have hb : 0 < b := EReal.coe_pos.mp hy0
  rw [Ideal.div_coe hb.ne', ← EReal.coe_mul]
  exact EReal.coe_pos.mpr (by positivity)

/-- A finite sum of reals is real. -/
theorem IsReal.sum {ι : Type} (s : Finset ι) (f : ι → EReal) (h : ∀ i ∈ s, IsReal (f i)) :
    IsReal (∑ i ∈ s, f i) :=
  Finset.sum_induction f IsReal (fun _ _ => IsReal.add) IsReal.zero h

/-- The supremum of finitely many reals (at least one) is one of them, hence real. -/
theorem IsReal.sup_univ {ι : Type} [Fintype ι] [Nonempty ι] (f : ι → EReal) (h : ∀ i, IsReal (f i)) :
    IsReal (Finset.univ.sup f) := by
  obtain ⟨i, -, hi⟩ := Finset.exists_mem_eq_sup Finset.univ Finset.univ_nonempty f
  rw [hi]; exact h i

/-- The infimum of finitely many reals (at least one) is one of them, hence real. -/
theorem IsReal.inf_univ {ι : Type} [Fintype ι] [Nonempty ι] (f : ι → EReal) (h : ∀ i, IsReal (f i)) :
    IsReal (Finset.univ.inf f) := by
  obtain ⟨i, -, hi⟩ := Finset.exists_mem_eq_inf Finset.univ Finset.univ_nonempty f
  rw [hi]; exact h i

/-! ## Cancelling a real -/

/-- Adding back a real `a` that was subtracted from an arbitrary extended real `b` returns `b`:
    for `b = ⊤` both sides are `⊤`, for `b = ⊥` both are `⊥`, and for real `b` it is the
    identity of the reals. -/
theorem add_sub_cancel_of_real {a : EReal} (b : EReal) (ha : IsReal a) : a + (b - a) = b := by
  obtain ⟨r, rfl⟩ := ha.exists
  induction b using EReal.rec with
  | bot => rw [EReal.bot_sub, EReal.add_bot]
  | top => rw [EReal.top_sub_coe, EReal.coe_add_top]
  | coe s => rw [← EReal.coe_sub, ← EReal.coe_add, add_sub_cancel]

/-! ## Single-precision words as extended reals -/

/-- The word with all exponent bits set and a zero significand denotes `⊤`. -/
theorem ofBits_pinf : Ideal.ofBits .f32 0x7F800000#32 = ⊤ := by simp [Ideal.ofBits, Ideal.ieee]

/-- The same word with the sign bit set denotes `⊥`. -/
theorem ofBits_ninf : Ideal.ofBits .f32 0xFF800000#32 = ⊥ := by simp [Ideal.ofBits, Ideal.ieee]

/-- `2 ^ 23 * 2 ^ (127 - 127 - 23) = 1`. -/
theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

/-- `(2 ^ 23 + 0x7E0000) * 2 ^ (133 - 127 - 23) = 127`. -/
theorem ofBits_127 : Ideal.ofBits .f32 0x42FE0000#32 = ((127 : ℝ) : EReal) := by
  simp [Ideal.ofBits, Ideal.ieee, -EReal.coe_mul]; norm_num

theorem ofBits_255 : Ideal.ofBits .f32 0x437F0000#32 = ((255 : ℝ) : EReal) := by
  simp [Ideal.ofBits, Ideal.ieee, -EReal.coe_mul]; norm_num

theorem ofBits_neg_128 : Ideal.ofBits .f32 0xC3000000#32 = ((-128 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-! A word whose exponent field is neither all zeros nor all ones denotes
    `± (2 ^ 23 + T) * 2 ^ (E - 150)`, the coercion of a real number; its exact value is not needed. -/

theorem isReal_322BCC77 : IsReal (Ideal.ofBits .f32 0x322BCC77#32) := by
  have h : ∃ r : ℝ, Ideal.ofBits .f32 0x322BCC77#32 = (r : EReal) := by
    simp [Ideal.ofBits, Ideal.ieee, -EReal.coe_mul]
  obtain ⟨r, hr⟩ := h
  rw [hr]; exact IsReal.coe r

theorem isReal_3F3504F3 : IsReal (Ideal.ofBits .f32 0x3F3504F3#32) := by
  have h : ∃ r : ℝ, Ideal.ofBits .f32 0x3F3504F3#32 = (r : EReal) := by
    simp [Ideal.ofBits, Ideal.ieee, -EReal.coe_mul]
  obtain ⟨r, hr⟩ := h
  rw [hr]; exact IsReal.coe r

theorem isReal_3FE26E98 : IsReal (Ideal.ofBits .f32 0x3FE26E98#32) := by
  have h : ∃ r : ℝ, Ideal.ofBits .f32 0x3FE26E98#32 = (r : EReal) := by
    simp [Ideal.ofBits, Ideal.ieee, -EReal.coe_mul]
  obtain ⟨r, hr⟩ := h
  rw [hr]; exact IsReal.coe r

theorem isReal_BFE26E98 : IsReal (Ideal.ofBits .f32 0xBFE26E98#32) := by
  have h : ∃ r : ℝ, Ideal.ofBits .f32 0xBFE26E98#32 = (r : EReal) := by
    simp [Ideal.ofBits, Ideal.ieee, -EReal.coe_mul]
    exact ⟨_, (EReal.coe_neg _).symm⟩
  obtain ⟨r, hr⟩ := h
  rw [hr]; exact IsReal.coe r

theorem isReal_BE93DD98 : IsReal (Ideal.ofBits .f32 0xBE93DD98#32) := by
  have h : ∃ r : ℝ, Ideal.ofBits .f32 0xBE93DD98#32 = (r : EReal) := by
    simp [Ideal.ofBits, Ideal.ieee, -EReal.coe_mul]
    exact ⟨_, (EReal.coe_neg _).symm⟩
  obtain ⟨r, hr⟩ := h
  rw [hr]; exact IsReal.coe r

/-- The word `0x322BCC77` (about `1e-8`) has a clear sign bit and a nonzero exponent field, so it
    denotes a product of positive reals. -/
theorem pos_322BCC77 : 0 < Ideal.ofBits .f32 0x322BCC77#32 := by
  simp [Ideal.ofBits, Ideal.ieee, -EReal.coe_mul]

/-! ## The sign function from comparisons -/

/-- Selecting `-1` or `1` by `t < 0` where `0 < |t|`, and `t` itself otherwise, is the sign of `t`,
    for every extended real: below zero (`⊥` included) `|t| > 0` and the value is `-1`; above zero
    (`⊤` included) `|t| > 0` and the value is `1`; at zero `|t| = 0` and the value is `t = 0`. -/
theorem sign_eq_select (t : EReal) :
    Scalar.select (Ideal.cmp .ogt (max t (-t)) 0)
        (Scalar.select (Ideal.cmp .olt t 0) (-1 : EReal) 1) t = Ideal.sign t := by
  simp only [Scalar.select, Ideal.cmp]
  rcases lt_trichotomy t 0 with hlt | h0 | hgt
  · have habs : 0 < max t (-t) := (Ideal.zero_lt_max_neg_iff t).mpr hlt.ne
    simp [hlt, habs, Ideal.sign_of_neg hlt]
  · subst h0
    simp [Ideal.sign_zero]
  · have habs : 0 < max t (-t) := (Ideal.zero_lt_max_neg_iff t).mpr hgt.ne'
    simp [hgt, not_lt.mpr hgt.le, habs, Ideal.sign_of_pos hgt]

/-! ## Folds of `max` and `min` as suprema and infima -/

/-- Folding `max` over a finite set from `⊥` is the supremum over the set. -/
theorem fold_max_bot {ι : Type} (s : Finset ι) (f : ι → EReal) : s.fold max ⊥ f = s.sup f := rfl

/-- Folding `min` over a finite set from `⊤` is the infimum over the set. -/
theorem fold_min_top {ι : Type} (s : Finset ι) (f : ι → EReal) : s.fold min ⊤ f = s.inf f := rfl

end LibFinite
-- ==== Proof.MeanAggSpec.lean ====
/-
  Mean aggregation of low-rank messages, as a function of the argument arrays.

  A graph has 200000 nodes and 640000 edges; edge `e` carries a source row `g e` and a destination number
  `didx[e, 0]` (a 32-bit word read signed; an edge whose destination is not a node number lands nowhere).  With
  `U : [200000, 16]` and `V : [16, 128]`, node `n`'s result row is the mean over the edges into `n` of
  `U[g e, :] · V`, the count of those edges replaced by 1 when there are none.

  Two arrangements of that number are compared.  One sums the 16-wide rows of `U` first, scales the sum by the
  reciprocal of the count, and multiplies by `V` last; the other multiplies every row by `V` first, sums the
  128-wide products, and divides by the count last.  For real entries they agree: the count is a real number at least 1,
  so dividing is multiplying by its reciprocal, and a finite sum commutes with a product by a fixed real and with
  another finite sum.  (On the extended reals with infinite entries the two can differ, so finiteness is used.)
-/
import Idealize.ShloMosaic.PureOps.Ideal
import Idealize.ShloMosaic.Lib.ValueIdx
import proofs.«138170_j24189255811345_1_alg».proof.Proof.LibFinite

noncomputable section

open scoped BigOperators

namespace Cert.MeanAgg

open Idealize.ShloMosaic Idealize.ShloMosaic.ValueIdx LibFinite

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LAW.  Over real entries and a nonzero real count `D`: summing rows, scaling by `1 / D` and then contracting
    with `v` is contracting every row with `v`, summing, and dividing by `D`. -/
theorem sum_scale_contract {ι : Type} (s : Finset ι) (u : ι → Fin 16 → ℝ) (v : Fin 16 → ℝ) (D : EReal)
    (hD : IsReal D) (hD0 : D ≠ 0) :
    ∑ k : Fin 16, ((0 + ∑ e ∈ s, ((u e k : ℝ) : EReal)) * Ideal.div 1 D) * ((v k : ℝ) : EReal)
      = Ideal.div (0 + ∑ e ∈ s, ∑ k : Fin 16, ((u e k : ℝ) : EReal) * ((v k : ℝ) : EReal)) D := by
  obtain ⟨d, rfl⟩ := hD.exists
  have hd : d ≠ 0 := fun h => hD0 (by rw [h, EReal.coe_zero])
  rw [Ideal.div_coe hd, Ideal.div_coe hd]
  simp only [zero_add, one_mul]
  simp only [← EReal.coe_mul, coe_sum]
  rw [EReal.coe_eq_coe_iff]
  have h1 : ∑ e ∈ s, ∑ k : Fin 16, u e k * v k = ∑ k : Fin 16, (∑ e ∈ s, u e k) * v k := by
    rw [Finset.sum_comm]
    exact Finset.sum_congr rfl fun k _ => (Finset.sum_mul _ _ _).symm
  rw [h1, Finset.sum_mul]
  exact Finset.sum_congr rfl fun k _ => by ring

/-! ## The two arrangements over the literal shapes -/

/-- The edges into node `n`: those whose destination number, read signed, is `n`. -/
abbrev seg (didx : IVec ⟨2, ![640000, 1]⟩ 32) (n : Fin 200000) : Finset (Fin 640000) :=
  Finset.univ.filter fun e => (didx (ix2 e 0)).toInt = (n.val : Int)

/-- The divisor of node `n`: the number of edges into it, or 1 when there are none. -/
def denom (didx : IVec ⟨2, ![640000, 1]⟩ 32) (n : Fin 200000) : EReal :=
  max (0 + ∑ _e ∈ seg didx n, (1 : EReal)) 1

/-- Rows summed first, scaled by the reciprocal count, contracted with `V` last. -/
def sumFirst (U : (⟨2, ![200000, 16]⟩ : Shape).Idx → EReal) (V : (⟨2, ![16, 128]⟩ : Shape).Idx → EReal)
    (g : Fin 640000 → Fin 200000) (didx : IVec ⟨2, ![640000, 1]⟩ 32) :
    (⟨2, ![200000, 128]⟩ : Shape).Idx → EReal := fun i =>
  ∑ k : Fin 16, ((0 + ∑ e ∈ seg didx (i 0), U (ix2 (g e) k)) * Ideal.div 1 (denom didx (i 0))) * V (ix2 k (i 1))

/-- Every row contracted with `V` first, the products summed, divided by the count last. -/
def contractFirst (U : (⟨2, ![200000, 16]⟩ : Shape).Idx → EReal) (V : (⟨2, ![16, 128]⟩ : Shape).Idx → EReal)
    (g : Fin 640000 → Fin 200000) (didx : IVec ⟨2, ![640000, 1]⟩ 32) :
    (⟨2, ![200000, 128]⟩ : Shape).Idx → EReal := fun i =>
  Ideal.div (0 + ∑ e ∈ seg didx (i 0), ∑ k : Fin 16, U (ix2 (g e) k) * V (ix2 k (i 1))) (denom didx (i 0))

/-- The divisor is a real number, and not zero: it is at least 1. -/
theorem denom_real (didx : IVec ⟨2, ![640000, 1]⟩ 32) (n : Fin 200000) :
    IsReal (denom didx n) ∧ denom didx n ≠ 0 := by
  refine ⟨IsReal.max (IsReal.add IsReal.zero (IsReal.sum _ _ fun _ _ => IsReal.one)) IsReal.one, ?_⟩
  have h1 : (1 : EReal) ≤ denom didx n := le_max_right _ _
  intro h0
  rw [h0] at h1
  exact absurd h1 (by norm_num)

/-- For real entries the two arrangements are one function. -/
theorem sumFirst_eq_contractFirst (U : (⟨2, ![200000, 16]⟩ : Shape).Idx → EReal)
    (V : (⟨2, ![16, 128]⟩ : Shape).Idx → EReal) (g : Fin 640000 → Fin 200000) (didx : IVec ⟨2, ![640000, 1]⟩ 32)
    (hU : ∀ i, IsReal (U i)) (hV : ∀ i, IsReal (V i)) :
    sumFirst U V g didx = contractFirst U V g didx := by
  funext i
  choose u hu using fun i => (hU i).exists
  choose v hv using fun i => (hV i).exists
  unfold sumFirst contractFirst
  simp only [hu, hv]
  exact sum_scale_contract (seg didx (i 0)) (fun e k => u (ix2 (g e) k)) (fun k => v (ix2 k (i 1)))
    (denom didx (i 0)) (denom_real didx (i 0)).1 (denom_real didx (i 0)).2

end Cert.MeanAgg

end
-- ==== Proof.LibScatter.lean ====
/-
  Row gathers and row scatters read at an index.

  `x[idx]` of a matrix `x : [N, C]` at a column of row numbers `idx : [E, 1]` is a `stablehlo.gather` whose result
  row `e` is row `idx[e, 0]` of `x`, the row number read signed and clamped into `[0, N - 1]`.  A segment sum
  `segment_sum(upd, idx, N)` of a matrix `upd : [E, C]` (or of a vector `upd : [E]`) is a `stablehlo.scatter` with an
  `add` body: on the extended reals element `(n, c)` of the result is the operand's element plus the sum of
  `upd[e, c]` over the rows `e` whose row number `idx[e, 0]`, read signed and NOT clamped, is `n`; a row number
  outside `[0, N)` lands nowhere.  These lemmas read the three operations at an index, for every extent.
-/
import Idealize.ShloMosaic.PureOps.Ideal
import Idealize.ShloMosaic.PureOps.Contract
import Idealize.ShloMosaic.Lib.ValueIdx

noncomputable section

open scoped BigOperators

namespace Idealize.ShloMosaic.RowOps

open Idealize.ShloMosaic Idealize.ShloMosaic.ValueIdx

/-! ## The dimension numbers -/

/-- A gather of whole rows: operand `[N, C]`, row numbers `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A scatter of whole rows: operand `[N, C]`, row numbers `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A scatter of single elements: operand `[N]`, element numbers `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The row gather -/

/-- The row a gather reads for result row `e`: the row number read signed, clamped into `[0, N - 1]`. -/
def clampRow {N E w : Nat} (hN : 0 < N) (idx : IVec ⟨2, ![E, 1]⟩ w) (e : Fin E) : Fin N :=
  ⟨min (idx (ix2 e 0)).toInt.toNat (N - 1), by omega⟩

/-- Axis 1 of a matrix is not axis 0. -/
private theorem fin2_one_ne_zero : ¬ (1 : Fin 2) = 0 := by decide

section RowGather
variable {N E C w : Nat} (wf : GatherDims.WF ⟨2, ![N, C]⟩ ⟨2, ![E, 1]⟩ ⟨2, ![E, C]⟩ [1] [0] [] [0] [] 1 ![1, C])

/-- On the row axis the gather reads the clamped row number. -/
theorem rowGather_row (hN : 0 < N) (idx : IVec ⟨2, ![E, 1]⟩ w) (e : Fin E) (c : Fin C) :
    (rowGather N E C wf).start (ix2 e c) idx 0 + (rowGather N E C wf).batchCoord (ix2 e c) 0
      + (rowGather N E C wf).offCoord (ix2 e c) 0 = (clampRow hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e c) ⟨List.idxOf (0 : Fin 2) (rowGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the gather reads the result's own column. -/
theorem rowGather_col (idx : IVec ⟨2, ![E, 1]⟩ w) (e : Fin E) (c : Fin C) :
    (rowGather N E C wf).start (ix2 e c) idx 1 + (rowGather N E C wf).batchCoord (ix2 e c) 1
      + (rowGather N E C wf).offCoord (ix2 e c) 1 = c.val := by
  rw [GatherDims.batchCoord_eq_zero _ _ _ List.not_mem_nil]
  unfold GatherDims.start
  rw [dif_neg (show ¬ (1 : Fin 2) ∈ (rowGather N E C wf).startIndexMap from
    fun h => fin2_one_ne_zero (List.mem_singleton.mp h))]
  unfold GatherDims.offCoord
  rw [dif_pos (show (1 : Fin 2) ∈ (rowGather N E C wf).sKept from
    (GatherDims.mem_sKept _ _).mpr ⟨fun h => fin2_one_ne_zero (List.mem_singleton.mp h), List.not_mem_nil⟩)]
  simp only [Nat.zero_add]
  rfl

/-- THE ROW GATHER READ AT `(e, c)`: the operand at row `clampRow e`, column `c`. -/
theorem rowGather_apply {α : Type} (hN : 0 < N)
    (x : (⟨2, ![N, C]⟩ : Shape).Idx → α) (idx : IVec ⟨2, ![E, 1]⟩ w) (e : Fin E) (c : Fin C) :
    Host.gather (rowGather N E C wf) x idx (ix2 e c) = x (ix2 (clampRow hN idx e) c) := by
  unfold Host.gather
  congr 1
  funext a
  refine Fin.ext ?_
  match a with
  | ⟨0, _⟩ => exact rowGather_row wf hN idx e c
  | ⟨1, _⟩ => exact rowGather_col wf idx e c

end RowGather

/-! ## The row scatter's result index -/

section RowScatter
variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatter N E C wf).start j idx 0 = (idx (ix2 (j 0) 0)).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

/-- On the column axis an update starts at zero. -/
theorem rowScatter_start1 (j : (⟨2, ![E, C]⟩ : Shape).Idx) (idx : IVec ⟨2, ![E, 1]⟩ w) :
    (rowScatter N E C wf).start j idx 1 = 0 := by
  unfold ScatterDims.start
  rw [dif_neg (show ¬ (1 : Fin 2) ∈ (rowScatter N E C wf).scatterDimsToOperandDims from
    fun h => fin2_one_ne_zero (List.mem_singleton.mp h))]

/-- The row axis is inserted: no window coordinate there. -/
theorem rowScatter_window0 (j : (⟨2, ![E, C]⟩ : Shape).Idx) : (rowScatter N E C wf).window j 0 = 0 := by
  unfold ScatterDims.window
  rw [dif_neg (show ¬ (0 : Fin 2) ∈ (rowScatter N E C wf).sKept from
    fun h => absurd (List.mem_singleton.mpr rfl) (of_decide_eq_true (List.mem_filter.mp h).2))]

/-- On the column axis the window coordinate is the update's column. -/
theorem rowScatter_window1 (j : (⟨2, ![E, C]⟩ : Shape).Idx) : (rowScatter N E C wf).window j 1 = (j 1).val := by
  unfold ScatterDims.window
  rw [dif_pos (show (1 : Fin 2) ∈ (rowScatter N E C wf).sKept from
    List.mem_filter.mpr ⟨List.mem_finRange _, decide_eq_true (fun h => fin2_one_ne_zero (List.mem_singleton.mp h))⟩)]
  rfl

/-- Update `(e, c)` lands on element `(n, c')` exactly when its row number, read signed, is `n` and `c = c'`. -/
theorem rowScatter_resultIdx (j : (⟨2, ![E, C]⟩ : Shape).Idx) (idx : IVec ⟨2, ![E, 1]⟩ w)
    (i : (⟨2, ![N, C]⟩ : Shape).Idx) :
    (rowScatter N E C wf).resultIdx? j idx = some i ↔ (idx (ix2 (j 0) 0)).toInt = ((i 0).val : Int) ∧ j 1 = i 1 := by
  have hi0 := idx2_lt0 i
  have hi1 := idx2_lt1 i
  have hj1 := idx2_lt1 j
  constructor
  · intro hres
    unfold ScatterDims.resultIdx? at hres
    split at hres
    · rename_i h
      have hi := Option.some.inj hres
      have e0 : ((rowScatter N E C wf).start j idx 0 + (rowScatter N E C wf).window j 0).toNat = (i 0).val :=
        congrArg (fun f : (⟨2, ![N, C]⟩ : Shape).Idx => (f 0).val) hi
      have e1 : ((rowScatter N E C wf).start j idx 1 + (rowScatter N E C wf).window j 1).toNat = (i 1).val :=
        congrArg (fun f : (⟨2, ![N, C]⟩ : Shape).Idx => (f 1).val) hi
      have h0 := (h 0).1
      rw [rowScatter_start0, rowScatter_window0] at e0 h0
      rw [rowScatter_start1, rowScatter_window1] at e1
      refine ⟨by omega, Fin.ext (by omega)⟩
    · exact absurd hres (by simp)
  · rintro ⟨hs, hc⟩
    have hc' : (j 1).val = (i 1).val := congrArg Fin.val hc
    have H : ∀ a, 0 ≤ (rowScatter N E C wf).start j idx a + (rowScatter N E C wf).window j a ∧
        (rowScatter N E C wf).start j idx a + (rowScatter N E C wf).window j a < ((⟨2, ![N, C]⟩ : Shape).size a : Int) := by
      intro a
      match a with
      | ⟨0, _⟩ =>
        show 0 ≤ (rowScatter N E C wf).start j idx 0 + (rowScatter N E C wf).window j 0 ∧
          (rowScatter N E C wf).start j idx 0 + (rowScatter N E C wf).window j 0 < (N : Int)
        rw [rowScatter_start0, rowScatter_window0]; omega
      | ⟨1, _⟩ =>
        show 0 ≤ (rowScatter N E C wf).start j idx 1 + (rowScatter N E C wf).window j 1 ∧
          (rowScatter N E C wf).start j idx 1 + (rowScatter N E C wf).window j 1 < (C : Int)
        rw [rowScatter_start1, rowScatter_window1]; omega
    unfold ScatterDims.resultIdx?
    rw [dif_pos H]
    congr 1
    funext a
    refine Fin.ext ?_
    match a with
    | ⟨0, _⟩ =>
      show ((rowScatter N E C wf).start j idx 0 + (rowScatter N E C wf).window j 0).toNat = (i 0).val
      rw [rowScatter_start0, rowScatter_window0]; omega
    | ⟨1, _⟩ =>
      show ((rowScatter N E C wf).start j idx 1 + (rowScatter N E C wf).window j 1).toNat = (i 1).val
      rw [rowScatter_start1, rowScatter_window1]; omega

/-- THE ROW SEGMENT SUM READ AT `(n, c)`: the operand's element plus the sum of column `c` of the update rows
    whose row number is `n`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e 0)).toInt = (n.val : Int)), upd (ix2 e c) := by
  unfold Ideal.hostScatterAdd
  congr 1
  rw [Finset.sum_filter, sum_idx2, Finset.sum_filter]
  refine Finset.sum_congr rfl fun e _ => ?_
  by_cases he : (idx (ix2 e 0)).toInt = (n.val : Int)
  · rw [if_pos he, Finset.sum_eq_single c]
    · rw [if_pos ((rowScatter_resultIdx wf (ix2 e c) idx (ix2 n c)).mpr ⟨he, rfl⟩)]
    · intro b _ hb
      rw [if_neg]
      intro h
      exact hb ((rowScatter_resultIdx wf (ix2 e b) idx (ix2 n c)).mp h).2
    · intro h
      exact absurd (Finset.mem_univ c) h
  · rw [if_neg he]
    refine Finset.sum_eq_zero fun b _ => ?_
    rw [if_neg]
    intro h
    exact he ((rowScatter_resultIdx wf (ix2 e b) idx (ix2 n c)).mp h).1

/-- The host's accumulating row scatter at the extended reals is that segment sum. -/
theorem host_rowScatterAdd_apply (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd (rowScatter N E C wf) x idx upd (ix2 n c)
      = x (ix2 n c) + ∑ e ∈ Finset.univ.filter (fun e : Fin E => (idx (ix2 e 0)).toInt = (n.val : Int)), upd (ix2 e c) :=
  rowScatterAdd_apply wf x idx upd n c

end RowScatter

/-! ## The element scatter -/

section VecScatter
variable {N E w : Nat} (wf : ScatterDims.WF ⟨1, ![N]⟩ ⟨2, ![E, 1]⟩ ⟨1, ![E]⟩ [] [0] [0] 1)

/-- An update starts at its element number, read signed. -/
theorem vecScatter_start0 (j : (⟨1, ![E]⟩ : Shape).Idx) (idx : IVec ⟨2, ![E, 1]⟩ w) :
    (vecScatter N E wf).start j idx 0 = (idx (ix2 (j 0) 0)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

/-- The one axis is inserted: no window coordinate. -/
theorem vecScatter_window0 (j : (⟨1, ![E]⟩ : Shape).Idx) : (vecScatter N E wf).window j 0 = 0 := by
  unfold ScatterDims.window
  rw [dif_neg (show ¬ (0 : Fin 1) ∈ (vecScatter N E wf).sKept from
    fun h => absurd (List.mem_singleton.mpr rfl) (of_decide_eq_true (List.mem_filter.mp h).2))]

/-- Update `e` lands on element `n` exactly when its element number, read signed, is `n`. -/
theorem vecScatter_resultIdx (j : (⟨1, ![E]⟩ : Shape).Idx) (idx : IVec ⟨2, ![E, 1]⟩ w)
    (i : (⟨1, ![N]⟩ : Shape).Idx) :
    (vecScatter N E wf).resultIdx? j idx = some i ↔ (idx (ix2 (j 0) 0)).toInt = ((i 0).val : Int) := by
  have hi0 : (i 0).val < N := (i 0).isLt
  constructor
  · intro hres
    unfold ScatterDims.resultIdx? at hres
    split at hres
    · rename_i h
      have hi := Option.some.inj hres
      have e0 : ((vecScatter N E wf).start j idx 0 + (vecScatter N E wf).window j 0).toNat = (i 0).val :=
        congrArg (fun f : (⟨1, ![N]⟩ : Shape).Idx => (f 0).val) hi
      have h0 := (h 0).1
      rw [vecScatter_start0, vecScatter_window0] at e0 h0
      omega
    · exact absurd hres (by simp)
  · intro hs
    have H : ∀ a, 0 ≤ (vecScatter N E wf).start j idx a + (vecScatter N E wf).window j a ∧
        (vecScatter N E wf).start j idx a + (vecScatter N E wf).window j a < ((⟨1, ![N]⟩ : Shape).size a : Int) := by
      intro a
      match a with
      | ⟨0, _⟩ =>
        show 0 ≤ (vecScatter N E wf).start j idx 0 + (vecScatter N E wf).window j 0 ∧
          (vecScatter N E wf).start j idx 0 + (vecScatter N E wf).window j 0 < (N : Int)
        rw [vecScatter_start0, vecScatter_window0]; omega
    unfold ScatterDims.resultIdx?
    rw [dif_pos H]
    congr 1
    funext a
    refine Fin.ext ?_
    match a with
    | ⟨0, _⟩ =>
      show ((vecScatter N E wf).start j idx 0 + (vecScatter N E wf).window j 0).toNat = (i 0).val
      rw [vecScatter_start0, vecScatter_window0]; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ELEMENT SEGMENT SUM READ AT `n`: the operand's element plus the sum of the updates whose element number
    is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e 0)).toInt = (n.val : Int)), upd (ix1 e) := by
  unfold Ideal.hostScatterAdd
  congr 1
  rw [Finset.sum_filter, sum_idx1, Finset.sum_filter]
  refine Finset.sum_congr rfl fun e _ => ?_
  refine if_congr ?_ rfl rfl
  rw [vecScatter_resultIdx]
  rfl

/-- The host's accumulating element scatter at the extended reals is that segment sum. -/
theorem host_vecScatterAdd_apply (x : FVec Ideal (⟨1, ![N]⟩ : Shape) .f32) (idx : IVec ⟨2, ![E, 1]⟩ w)
    (upd : FVec Ideal (⟨1, ![E]⟩ : Shape) .f32) (n : Fin N) :
    Host.scatterAdd (vecScatter N E wf) x idx upd (ix1 n)
      = x (ix1 n) + ∑ e ∈ Finset.univ.filter (fun e : Fin E => (idx (ix2 e 0)).toInt = (n.val : Int)), upd (ix1 e) :=
  vecScatterAdd_apply wf x idx upd n

end VecScatter

end Idealize.ShloMosaic.RowOps

end
-- ==== Proof.RefValue.lean ====
/-
  The reference's result, index by index.

  The reference multiplies `U` by `V` first (a 200000 × 128 matrix of 16-term sums), gathers one row of that product
  per edge (the source row, clamped into the matrix), adds the gathered rows into a zero matrix at the edges'
  destination rows, counts the edges per destination by adding ones into a zero vector, replaces a zero count by 1,
  and divides each row by its count.  Read at `(n, c)` that is: the sum over the edges into `n` of
  `∑ k, U[g e, k] · V[k, c]`, divided by the count of those edges or by 1 — the arrangement `contractFirst`.
-/
import proofs.«138170_j24189255811345_1_alg».proof.Proof.Gen.ReferenceIdeal.Read
import proofs.«138170_j24189255811345_1_alg».proof.Proof.LibScatter
import proofs.«138170_j24189255811345_1_alg».proof.Proof.LibFinite
import proofs.«138170_j24189255811345_1_alg».proof.Proof.MeanAggSpec

noncomputable section

open scoped BigOperators

namespace Cert.ReferenceIdeal.RefValue

open Cert.ReferenceIdeal Cert.ReferenceIdeal.Read Idealize.ShloMosaic Idealize.ShloMosaic.ValueIdx
open Idealize.ShloMosaic.RowOps Cert.MeanAgg LibFinite

variable (x0 : (⟨S200000x16, .f32⟩ : BufTy).Contents (Elt Ideal)) (x1 : (⟨S16x128, .f32⟩ : BufTy).Contents (Elt Ideal))
  (x2 : (⟨S2x640000, .i32⟩ : BufTy).Contents (Elt Ideal))

/-- The column of source row numbers (negative ones wrapped once by the number of rows), as the reference computes it. -/
abbrev srcCol : IVec ⟨2, ![640000, 1]⟩ 32 := val_main_v10 (F := Ideal) x2
/-- The column of destination row numbers. -/
abbrev dstCol : IVec ⟨2, ![640000, 1]⟩ 32 := val_main_v13 (F := Ideal) x2
/-- The source row of each edge: its row number read signed and clamped into the matrix. -/
abbrev srcRow : Fin 640000 → Fin 200000 := clampRow (by decide : 0 < 200000) (srcCol x2)

/-- The product `U · V` at `(r, c)`. -/
theorem product_apply (r : Fin 200000) (c : Fin 128) :
    val_main_v0 (F := Ideal) x0 x1 (ix2 r c) = ∑ k : Fin 16, x0 (ix2 r k) * x1 (ix2 k c) := by
  rw [val_main_v0_apply]
  refine Finset.sum_congr rfl fun k _ => ?_
  have el : lidx_main_v0 (ix2 r c) k = ix2 r k := funext fun a => by
    match a with
    | ⟨0, _⟩ => rfl
    | ⟨1, _⟩ => rfl
  have er : ridx_main_v0 (ix2 r c) k = ix2 k c := funext fun a => by
    match a with
    | ⟨0, _⟩ => rfl
    | ⟨1, _⟩ => rfl
  rw [el, er]

/-- The gathered messages at `(e, c)`: the product's row `srcRow e`. -/
theorem messages_apply (e : Fin 640000) (c : Fin 128) :
    val_main_v11 (F := Ideal) x0 x1 x2 (ix2 e c) = val_main_v0 (F := Ideal) x0 x1 (ix2 (srcRow x2 e) c) :=
  rowGather_apply (N := 200000) (E := 640000) (C := 128)
    Facts₀.gather_S200000x128_S640000x1_S640000x128_1_0_n_n_0_1_1128_wf (by decide)
    (val_main_v0 (F := Ideal) x0 x1) (srcCol x2) e c

/-- The zero matrix the messages are added into. -/
theorem zeros_apply (i : S200000x128.Idx) : val_main_v12 (F := Ideal) i = 0 := by
  rw [val_main_v12_apply, val_main_cst_apply]
  exact Ideal.ofBits_zero_f32

/-- The summed messages at `(n, c)`. -/
theorem summed_apply (n : Fin 200000) (c : Fin 128) :
    val_main_v14 (F := Ideal) x0 x1 x2 (ix2 n c)
      = 0 + ∑ e ∈ seg (dstCol x2) n, ∑ k : Fin 16, x0 (ix2 (srcRow x2 e) k) * x1 (ix2 k c) := by
  have h : val_main_v14 (F := Ideal) x0 x1 x2
      = Host.scatterAdd (F := Ideal) (φ := .f32)
          (rowScatter 200000 640000 128 Facts₀.scatter_S200000x128_S640000x1_S640000x128_1_0_0_1_wf)
          (val_main_v12 (F := Ideal)) (dstCol x2) (val_main_v11 (F := Ideal) x0 x1 x2) := rfl
  rw [h, host_rowScatterAdd_apply, zeros_apply]
  refine congrArg (fun z => (0 : EReal) + z) ?_
  refine Finset.sum_congr rfl fun e _ => ?_
  rw [messages_apply, product_apply]

/-- The edge counts at `n`. -/
theorem counts_apply (n : Fin 200000) :
    val_main_v18 (F := Ideal) x2 (ix1 n) = 0 + ∑ _e ∈ seg (dstCol x2) n, (1 : EReal) := by
  have h : val_main_v18 (F := Ideal) x2
      = Host.scatterAdd (F := Ideal) (φ := .f32)
          (vecScatter 200000 640000 Facts₀.scatter_S200000_S640000x1_S640000_n_0_0_1_wf)
          (val_main_v16 (F := Ideal)) (dstCol x2) (val_main_v15 (F := Ideal)) := rfl
  rw [h, host_vecScatterAdd_apply]
  have hz : val_main_v16 (F := Ideal) (ix1 n) = 0 := by
    rw [val_main_v16_apply, val_main_cst_2_apply]
    exact Ideal.ofBits_zero_f32
  rw [hz]
  refine congrArg (fun z => (0 : EReal) + z) ?_
  refine Finset.sum_congr rfl fun e _ => ?_
  rw [val_main_v15_apply, val_main_cst_1_apply]
  exact ofBits_one

/-- The divisor matrix at `(n, c)`: node `n`'s divisor. -/
theorem divisor_apply (n : Fin 200000) (c : Fin 128) :
    val_main_v22 (F := Ideal) x2 (ix2 n c) = denom (dstCol x2) n := by
  rw [val_main_v22_apply, val_main_v21_apply, val_main_v20_apply]
  have hi : idx_main_v21 (idx_main_v22 (ix2 n c)) = ix1 n := funext fun a => by
    match a with
    | ⟨0, _⟩ => rfl
  rw [hi, counts_apply, val_main_v19_apply, val_main_cst_3_apply]
  show max _ (Ideal.ofBits .f32 0x3F800000#32) = _
  rw [ofBits_one]
  rfl

/-- THE REFERENCE'S RESULT is the arrangement that contracts first. -/
theorem result_eq :
    val_main_v23 (F := Ideal) x0 x1 x2 = contractFirst x0 x1 (srcRow x2) (dstCol x2) := by
  funext i
  obtain ⟨n, c, rfl⟩ : ∃ (n : Fin 200000) (c : Fin 128), i = ix2 n c := ⟨i 0, i 1, eq_ix2 i⟩
  rw [val_main_v23_apply, summed_apply, divisor_apply]
  rfl

end Cert.ReferenceIdeal.RefValue

end
-- ==== Proof.KernelHost.lean ====
/-
  What the kernel's region finds in its input arrays.

  Before the region the host gathers one 16-wide row of `U` per edge (the source row, clamped into the matrix), adds
  the gathered rows into a zero 200000 × 16 matrix at the edges' destination rows, counts the edges per destination by
  adding ones into a zero vector, and takes the reciprocal of the count or of 1, laid out as a 200000 × 1 column.
  Read at an index: the sum matrix at `(n, k)` is `0 + ∑ U[g e, k]` over the edges into `n`, and the reciprocal
  column at `(n, 0)` is `1 / max (count n) 1`.  The two columns of row numbers are, term for term, the ones the
  reference computes from the same edge array.
-/
import proofs.«138170_j24189255811345_1_alg».proof.Proof.Gen.KernelIdeal.Value
import proofs.«138170_j24189255811345_1_alg».proof.Proof.RefValue
import Idealize.ShloMosaic.Lib.Pipeline.Value
import Idealize.ShloMosaic.Lib.StableHlo.Run

set_option maxRecDepth 16384

noncomputable section

open scoped BigOperators

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx Idealize.ShloMosaic.RowOps Cert.MeanAgg LibFinite

variable (m : (ℓ : Loc nD τ sig) → Buf (Elt Ideal) ℓ) (c : Dev nD)

/-- The argument arrays on core `c`. -/
abbrev argU : S200000x16.Idx → EReal := m ((c : Thread nD τ).loc main_arg0)
abbrev argV : S16x128.Idx → EReal := m ((c : Thread nD τ).loc main_arg1)
abbrev argE : S2x640000.Idx → BitVec 32 := m ((c : Thread nD τ).loc main_arg2)

/-- The columns of source and destination row numbers, and each edge's clamped source row. -/
abbrev srcCol : IVec ⟨2, ![640000, 1]⟩ 32 := Cert.ReferenceIdeal.RefValue.srcCol (argE m c)
abbrev dstCol : IVec ⟨2, ![640000, 1]⟩ 32 := Cert.ReferenceIdeal.RefValue.dstCol (argE m c)
abbrev srcRow : Fin 640000 → Fin 200000 := Cert.ReferenceIdeal.RefValue.srcRow (argE m c)

/-- A splat of a scalar constant reads the constant's value everywhere. -/
theorem splat_apply {t : Shape} (h : S_.BroadcastsInDim t (![] : Fin 0 → Fin t.rank)) (b : BitVec 32) (j : t.Idx) :
    broadcastInDim t ![] h (constant (F := Ideal) S_ .f32 b) j = Ideal.ofBits .f32 b :=
  broadcastInDim_apply _ h _ j ix0 (fun a => a.elim0)

/-- The host's quotient at an index. -/
theorem hostDivf_apply {s : Shape} (a b : FVec Ideal s .f32) (i : s.Idx) : Host.divf a b i = Ideal.div (a i) (b i) := rfl

/-- The sum matrix, as the host operations compute it from the arguments. -/
theorem sums_eq : (V m c main_v13 : S200000x16.Idx → EReal)
    = Host.scatterAdd (F := Ideal) (φ := .f32)
        (rowScatter 200000 640000 16 Facts₀.scatter_S200000x16_S640000x1_S640000x16_1_0_0_1_wf)
        (broadcastInDim S200000x16 ![] bcast_S_S200000x16 (constant (F := Ideal) S_ .f32 0x00000000#32))
        (dstCol m c)
        (Host.gather (rowGather 200000 640000 16 Facts₀.gather_S200000x16_S640000x1_S640000x16_1_0_n_n_0_1_116_wf)
          (argU m c) (srcCol m c)) := by
  dsimp only [Gen.V, Gen.hostOps0]; after_results; rfl

/-- The reciprocal column, as the host operations compute it from the arguments. -/
theorem recip_eq : (V m c main_v22 : S200000x1.Idx → EReal)
    = shapeCast S200000x1
        (Host.divf (broadcastInDim S200000 ![] bcast_S_S200000 (constant (F := Ideal) S_ .f32 0x3F800000#32))
          (maximumf
            (Host.scatterAdd (F := Ideal) (φ := .f32)
              (vecScatter 200000 640000 Facts₀.scatter_S200000_S640000x1_S640000_n_0_0_1_wf)
              (broadcastInDim S200000 ![] bcast_S_S200000 (constant (F := Ideal) S_ .f32 0x00000000#32))
              (dstCol m c)
              (broadcastInDim S640000 ![] bcast_S_S640000 (constant (F := Ideal) S_ .f32 0x3F800000#32)))
            (broadcastInDim S200000 ![] bcast_S_S200000 (constant (F := Ideal) S_ .f32 0x3F800000#32))))
        shapeCasts_S200000_S200000x1 := by
  dsimp only [Gen.V, Gen.hostOps0]; after_results; rfl

/-- THE SUM MATRIX AT `(n, k)`: the sum over the edges into `n` of column `k` of their source rows. -/
theorem sums_apply (n : Fin 200000) (k : Fin 16) :
    (V m c main_v13 : S200000x16.Idx → EReal) (ix2 n k)
      = 0 + ∑ e ∈ seg (dstCol m c) n, argU m c (ix2 (srcRow m c e) k) := by
  rw [sums_eq, host_rowScatterAdd_apply, splat_apply, Ideal.ofBits_zero_f32]
  refine congrArg (fun z => (0 : EReal) + z) ?_
  refine Finset.sum_congr rfl fun e _ => ?_
  exact rowGather_apply _ (by decide) (argU m c) (srcCol m c) e k

/-- THE RECIPROCAL COLUMN AT `(n, 0)`: one over node `n`'s divisor. -/
theorem recip_apply (n : Fin 200000) :
    (V m c main_v22 : S200000x1.Idx → EReal) (ix2 n (0 : Fin 1)) = Ideal.div 1 (denom (dstCol m c) n) := by
  rw [recip_eq]
  rw [shapeCast_apply _ shapeCasts_S200000_S200000x1 (ix2 n (0 : Fin 1)) (ix1 n) (by
    rw [Shape.rowMajor_val_one, Shape.rowMajor_val_two]
    show n.val = n.val * 1 + 0
    omega)]
  rw [hostDivf_apply, maximumf_apply]
  have hcount : Host.scatterAdd (F := Ideal) (φ := .f32)
      (vecScatter 200000 640000 Facts₀.scatter_S200000_S640000x1_S640000_n_0_0_1_wf)
      (broadcastInDim S200000 ![] bcast_S_S200000 (constant (F := Ideal) S_ .f32 0x00000000#32)) (dstCol m c)
      (broadcastInDim S640000 ![] bcast_S_S640000 (constant (F := Ideal) S_ .f32 0x3F800000#32)) (ix1 n)
      = 0 + ∑ _e ∈ seg (dstCol m c) n, (1 : EReal) := by
    rw [host_vecScatterAdd_apply, splat_apply, Ideal.ofBits_zero_f32]
    refine congrArg (fun z => (0 : EReal) + z) ?_
    refine Finset.sum_congr rfl fun e _ => ?_
    rw [splat_apply, ofBits_one]
  rw [hcount, splat_apply, ofBits_one]
  unfold denom
  exact Eq.refl _

end Cert.KernelIdeal.KHost

end
-- ==== Proof.KernelBlocks.lean ====
/-
  The input blocks of one grid point, read at an index.

  Point `t` stages rows `10000 t … 10000 t + 9999` of the sum matrix and of the reciprocal column, and the whole of
  `V`.  So entry `(r, k)` of its block of the sum matrix is entry `(10000 t + r, k)` of the matrix, entry `(r, 0)` of its
  block of the column is entry `(10000 t + r, 0)` of the column, and its block of `V` is `V` as launched.
-/
import proofs.«138170_j24189255811345_1_alg».proof.Proof.KernelHost

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.KHost

variable (m : (ℓ : Loc nD τ sig) → Buf (Elt Ideal) ℓ)

/-- The printed index maps over the twenty grid points: the two row-blocked inputs move with the output, the matrix
    stays, and the output's row block is the point's number. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- Reading ANY array through window 0's block at point `t` is the array at the embedded index. -/
theorem read0 (c : Dev nD) (t : Fin cfg0.N)
    (A : Buf (Elt Ideal) ((c : Thread nD τ).loc (Pipeline.arrRef spec0 0))) (y : S10000x16.Idx) :
    ((cfg0.win 0).blk t).view.read (Elt Ideal) A y = A (((cfg0.win 0).blk t).view.emb y) := rfl

/-- The same for window 1. -/
theorem read1 (c : Dev nD) (t : Fin cfg0.N)
    (A : Buf (Elt Ideal) ((c : Thread nD τ).loc (Pipeline.arrRef spec0 1))) (y : S10000x1.Idx) :
    ((cfg0.win 1).blk t).view.read (Elt Ideal) A y = A (((cfg0.win 1).blk t).view.emb y) := rfl

/-- The same for window 2. -/
theorem read2 (c : Dev nD) (t : Fin cfg0.N)
    (A : Buf (Elt Ideal) ((c : Thread nD τ).loc (Pipeline.arrRef spec0 2))) (y : S16x128.Idx) :
    ((cfg0.win 2).blk t).view.read (Elt Ideal) A y = A (((cfg0.win 2).blk t).view.emb y) := rfl

/-- The same for the output window 3. -/
theorem read3 (c : Dev nD) (t : Fin cfg0.N)
    (A : Buf (Elt Ideal) ((c : Thread nD τ).loc (Pipeline.arrRef spec0 3))) (y : S10000x128.Idx) :
    ((cfg0.win 3).blk t).view.read (Elt Ideal) A y = A (((cfg0.win 3).blk t).view.emb y) := rfl

/-- The output's blocks are whole: what a point writes back of ANY block contents is those contents. -/
theorem cut3 (t : Fin cfg0.N) (X : S10000x128.Idx → EReal) (y : S10000x128.Idx) :
    (cfg0.win 3).cut (grid0.coords t) X y = X y := rfl

/-- Row `r` of point `t`'s block of the sum matrix is row `10000 t + r` of the matrix. -/
theorem blk0_at (c : Dev nD) (t : Fin cfg0.N) (r : Fin 10000) (k : Fin 16) (n : Fin 200000)
    (hn : n.val = win0_3.index t (0 : Fin 2) * 10000 + r.val) :
    iblk m c 0 t (ix2 r k) = (V m c main_v13 : S200000x16.Idx → EReal) (ix2 n k) := by
  obtain ⟨e0, e1, -, -, -, -, -, -⟩ := idx_facts t
  have h1 : iblk m c 0 t = ((cfg0.win 0).blk t).view.read (Elt Ideal) (V m c (Pipeline.arrRef spec0 0)) := rfl
  have h2 := read0 c t (V m c (Pipeline.arrRef spec0 0)) (ix2 r k)
  have h3 : V m c (Pipeline.arrRef spec0 0) = V m c main_v13 := rfl
  have h4 : ((cfg0.win 0).blk t).view.emb (ix2 r k) = (ix2 n k : S200000x16.Idx) := by
    funext a; apply Fin.ext
    match a with
    | ⟨0, _⟩ =>
      show win0_0.index t (0 : Fin 2) * 10000 + 1 * r.val = n.val
      omega
    | ⟨1, _⟩ =>
      show win0_0.index t (1 : Fin 2) * 16 + 1 * k.val = k.val
      omega
  exact (congrFun h1 _).trans (h2.trans ((congrFun h3 _).trans (congrArg (V m c main_v13) h4)))

/-- Row `r` of point `t`'s block of the reciprocal column is row `10000 t + r` of the column. -/
theorem blk1_at (c : Dev nD) (t : Fin cfg0.N) (r : Fin 10000) (n : Fin 200000)
    (hn : n.val = win0_3.index t (0 : Fin 2) * 10000 + r.val) :
    iblk m c 1 t (ix2 r (0 : Fin 1)) = (V m c main_v22 : S200000x1.Idx → EReal) (ix2 n (0 : Fin 1)) := by
  obtain ⟨-, -, e2, e3, -, -, -, -⟩ := idx_facts t
  have h1 : iblk m c 1 t = ((cfg0.win 1).blk t).view.read (Elt Ideal) (V m c (Pipeline.arrRef spec0 1)) := rfl
  have h2 := read1 c t (V m c (Pipeline.arrRef spec0 1)) (ix2 r (0 : Fin 1))
  have h3 : V m c (Pipeline.arrRef spec0 1) = V m c main_v22 := rfl
  have h4 : ((cfg0.win 1).blk t).view.emb (ix2 r (0 : Fin 1)) = (ix2 n (0 : Fin 1) : S200000x1.Idx) := by
    funext a; apply Fin.ext
    match a with
    | ⟨0, _⟩ =>
      show win0_1.index t (0 : Fin 2) * 10000 + 1 * r.val = n.val
      omega
    | ⟨1, _⟩ =>
      show win0_1.index t (1 : Fin 2) * 1 + 1 * 0 = 0
      omega
  exact (congrFun h1 _).trans (h2.trans ((congrFun h3 _).trans (congrArg (V m c main_v22) h4)))

/-- Every point's block of `V` is all of `V`, as launched. -/
theorem blk2_at (c : Dev nD) (t : Fin cfg0.N) (k : Fin 16) (q : Fin 128) :
    iblk m c 2 t (ix2 k q) = argV m c (ix2 k q) := by
  obtain ⟨-, -, -, -, e4, e5, -, -⟩ := idx_facts t
  have h1 : iblk m c 2 t = ((cfg0.win 2).blk t).view.read (Elt Ideal) (V m c (Pipeline.arrRef spec0 2)) := rfl
  have h2 := read2 c t (V m c (Pipeline.arrRef spec0 2)) (ix2 k q)
  have h3 : V m c (Pipeline.arrRef spec0 2) = V m c main_arg1 := rfl
  have h4 : ((cfg0.win 2).blk t).view.emb (ix2 k q) = (ix2 k q : S16x128.Idx) := by
    funext a; apply Fin.ext
    match a with
    | ⟨0, _⟩ =>
      show win0_2.index t (0 : Fin 2) * 16 + 1 * k.val = k.val
      omega
    | ⟨1, _⟩ =>
      show win0_2.index t (1 : Fin 2) * 128 + 1 * q.val = q.val
      omega
  exact (congrFun h1 _).trans (h2.trans ((congrFun h3 _).trans
    ((congrFun (V_main_arg1 m c) _).trans (congrArg (m ((c : Thread nD τ).loc main_arg1)) h4))))

end Cert.KernelIdeal.KValue

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.KernelPoint.lean ====
/-
  What one grid point of the kernel writes back.

  Grid point `t` reads rows `10000 t … 10000 t + 9999` of the sum matrix and of the reciprocal column, and all of
  `V`; it scales each row of sums by that row's reciprocal, multiplies the 10000 × 16 block by the 16 × 128 matrix into
  a zero accumulator, and writes the 10000 × 128 product back as the same rows of the result.  So result row
  `n = 10000 t + r`, column `q`, is `∑ k, (sums[n, k] · recip[n]) · V[k, q]`: with the host operations read at an
  index, the arrangement `sumFirst` at `(n, q)`.
-/
import proofs.«138170_j24189255811345_1_alg».proof.Proof.KernelBlocks
import proofs.«138170_j24189255811345_1_alg».proof.Proof.LibDense

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.RowOps Cert.MeanAgg LibFinite Cert.LibDense Cert.KernelIdeal.KHost

variable (m : (ℓ : Loc nD τ sig) → Buf (Elt Ideal) ℓ)

/-- The offsets of a whole-block access are all zero. -/
theorem hz : (![0, 0] : Fin 2 → Nat) = fun _ => 0 := funext fun a => by fin_cases a <;> rfl

/-- The result array as one function of the argument arrays. -/
abbrev result (c : Dev nD) : S200000x128.Idx → EReal :=
  sumFirst (argU m c) (argV m c) (srcRow m c) (dstCol m c)

/-- `sumFirst` at `(n, q)`, written out. -/
theorem sumFirst_at (U : (⟨2, ![200000, 16]⟩ : Shape).Idx → EReal) (V : (⟨2, ![16, 128]⟩ : Shape).Idx → EReal)
    (g : Fin 640000 → Fin 200000) (d : IVec ⟨2, ![640000, 1]⟩ 32) (n : Fin 200000) (q : Fin 128) :
    sumFirst U V g d (ix2 n q)
      = ∑ k : Fin 16, ((0 + ∑ e ∈ seg d n, U (ix2 (g e) k)) * Ideal.div 1 (denom d n)) * V (ix2 k q) := rfl

/-- THE BODY'S PRODUCT AT `(r, q)`: row `r` of the first block, scaled by row `r` of the column block, against
    column `q` of the matrix block. -/
theorem pay_at (x0 : Vec Ideal S10000x16 .f32) (x1 : Vec Ideal S10000x1 .f32) (x2 : Vec Ideal S16x128 .f32)
    (r : Fin 10000) (q : Fin 128) :
    k0_pay1 x0 x1 x2 (ix2 r q)
      = ∑ k : Fin 16, (x0 (ix2 r k) * x1 (ix2 r (0 : Fin 1))) * x2 (ix2 k q) := by
  unfold k0_pay1
  rw [shapeCast_self, shapeCast_self]
  have hd : dot_S10000x16_S16x128_S10000x128_1_0_0_1_n_n
      = plainOf Facts₀.dot_S10000x16_S16x128_S10000x128_1_0_0_1_n_n_wf := rfl
  rw [hd]
  refine (matmul_zero_plain Facts₀.dot_S10000x16_S16x128_S10000x128_1_0_0_1_n_n_wf none _ _ r q).trans ?_
  refine Finset.sum_congr rfl fun k _ => ?_
  rw [truncf_apply, truncf_apply, mulf_apply, spread_col_apply]

/-- WHAT POINT `t` WRITES BACK is block `t` of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S10000x16) hz, View.ld_unit_zero (S := S10000x1) hz,
    View.ld_unit_zero (S := S16x128) hz]
  obtain ⟨-, -, -, -, -, -, e6, e7⟩ := idx_facts t
  have ht : t.val < 20 := t.isLt
  funext j
  obtain ⟨r, q, rfl⟩ : ∃ (r : Fin 10000) (q : Fin 128), j = ix2 r q := ⟨j 0, j 1, eq_ix2 j⟩
  obtain ⟨n, hn⟩ : ∃ n : Fin 200000, n.val = win0_3.index t (0 : Fin 2) * 10000 + r.val :=
    ⟨⟨win0_3.index t (0 : Fin 2) * 10000 + r.val, by have := r.isLt; omega⟩, rfl⟩
  have hemb : ((cfg0.win 3).blk t).view.emb (ix2 r q) = (ix2 n q : S200000x128.Idx) := by
    funext a; apply Fin.ext
    match a with
    | ⟨0, _⟩ =>
      show win0_3.index t (0 : Fin 2) * 10000 + 1 * r.val = n.val
      omega
    | ⟨1, _⟩ =>
      show win0_3.index t (1 : Fin 2) * 128 + 1 * q.val = q.val
      omega
  refine (cut3 t _ (ix2 r q)).trans ?_
  refine Eq.trans ?_ (read3 c t (result m c) (ix2 r q)).symm
  rw [hemb]
  show _ = sumFirst (argU m c) (argV m c) (srcRow m c) (dstCol m c) (ix2 n q)
  rw [sumFirst_at]
  refine (pay_at _ _ _ r q).trans ?_
  refine Finset.sum_congr rfl fun k _ => ?_
  rw [blk0_at m c t r k n hn, blk1_at m c t r n hn, blk2_at m c t k q, sums_apply, recip_apply]

end Cert.KernelIdeal.KValue

end
-- ==== Proof.KernelValue.lean ====
/-
  The kernel's result array, index by index.

  Every grid point writes back its row block of `sumFirst` of the arguments (KernelPoint).  The twenty row blocks
  tile the result, row `n` lying in block `n / 10000`, so after the run the whole result array is `sumFirst`.
-/
import proofs.«138170_j24189255811345_1_alg».proof.Proof.KernelPoint

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.MeanAgg Cert.KernelIdeal.KHost

variable (m : (ℓ : Loc nD τ sig) → Buf (Elt Ideal) ℓ) (ρ : Dev nD → PrngReg)

/-- An index of the result is in point `t`'s block iff each coordinate is in the block's range on its axis. -/
theorem mem_blk (t : Fin cfg0.N) (i : S200000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v23).slice (win0_3.rect t)).set ↔ _
  rw [View.set_slice_whole, Rect.mem_set_unit]
  exact Iff.rfl

/-- Every index of the result is in the block of the point numbered by its row's block. -/
theorem cover (i : S200000x128.Idx) :
    ∃ t : Fin cfg0.N, (cfg0.win 3).flush t = true ∧ i ∈ ((cfg0.win 3).blk t).view.set := by
  have hi0 : (i 0).val < 200000 := (i 0).isLt
  have hi1 : (i 1).val < 128 := (i 1).isLt
  refine ⟨⟨(i 0).val / 10000, by show (i 0).val / 10000 < 20; omega⟩, flush0_3 _, ?_⟩
  rw [mem_blk]
  obtain ⟨-, -, -, -, -, -, e6, e7⟩ := idx_facts ⟨(i 0).val / 10000, by show (i 0).val / 10000 < 20; omega⟩
  have e6' : win0_3.index ⟨(i 0).val / 10000, by show (i 0).val / 10000 < 20; omega⟩ (0 : Fin 2) = (i 0).val / 10000 := e6
  intro a
  match a with
  | ⟨0, _⟩ =>
    show win0_3.index _ (0 : Fin 2) * 10000 ≤ (i 0).val ∧ (i 0).val < win0_3.index _ (0 : Fin 2) * 10000 + 10000
    rw [e6']; omega
  | ⟨1, _⟩ =>
    show win0_3.index _ (1 : Fin 2) * 128 ≤ (i 1).val ∧ (i 1).val < win0_3.index _ (1 : Fin 2) * 128 + 128
    rw [e7]; omega

/-- THE RESULT ARRAY after the run. -/
theorem final (c : Dev nD) : (dats m 0 c).arrAt 3 cfg0.N = result m c :=
  (dats m 0 c).arrAt_eq_of_cover 3 (result m c) (fun t _ => flushed_eq m c t) cover

/-- The kernel's run: the result array holds `result`, the arguments are unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KValue

end
-- ==== Proof.FiniteInputs.lean ====
/-
  The precondition, read back: every entry of `U` and of `V` is a real number.

  The precondition is the conjunction of two `all`-reductions, each over the comparisons `|x| < +∞` of one float
  argument's entries.  On the extended reals `|x| = max x (-x)` is `+∞` exactly at the two infinities, so an entry
  passing the comparison is a real number.
-/
import proofs.«138170_j24189255811345_1_alg».proof.Pre_finite_inputs
import proofs.«138170_j24189255811345_1_alg».proof.Proof.LibFinite
import Idealize.ShloMosaic.Lib.ReduceAll
import Idealize.ShloMosaic.Lib.ValueIdx

set_option maxRecDepth 16384

noncomputable section

namespace Cert.FiniteInputs

open Idealize.ShloMosaic Idealize.ShloMosaic.ValueIdx LibFinite Cert.Pre_finite_inputs

instance : Subsingleton S_.Idx := ⟨fun a b => funext fun d => d.elim0⟩

/-- An extended real whose absolute value compares below `+∞` is a real number. -/
theorem real_of_abs_lt (x : EReal)
    (h : Ideal.cmp .olt (max x (-x)) (Ideal.ofBits .f32 0x7F800000#32) = 1#1) : IsReal x := by
  rw [ofBits_pinf] at h
  induction x using EReal.rec with
  | bot => exfalso; simp [Ideal.cmp] at h
  | top => exfalso; simp [Ideal.cmp] at h
  | coe r => exact IsReal.coe r

/-- Under the precondition every entry of both float arguments is real. -/
theorem inputs_real [Facts] (U : FVec Ideal S200000x16 .f32) (V : FVec Ideal S16x128 .f32) (E : IVec S2x640000 32)
    (h : fn (F := Ideal) U V E = fun _ => 1#1) : (∀ i, IsReal (U i)) ∧ (∀ i, IsReal (V i)) := by
  have h0 := congrFun h ix0
  dsimp only [fn] at h0
  obtain ⟨hu, hv⟩ := IntOp.andi_eq_one.mp h0
  refine ⟨fun i => ?_, fun i => ?_⟩
  · exact real_of_abs_lt (U i) (Host.reduce_andi_all _ _ _ _ _ hu i)
  · exact real_of_abs_lt (V i) (Host.reduce_andi_all _ _ _ _ _ hv i)

end Cert.FiniteInputs

end
-- ==== Proof.lean ====
/-
  Mean aggregation of low-rank node embeddings over a graph: the kernel against its reference, on the extended reals.

  Both programs take `U : [200000, 16]`, `V : [16, 128]` and an edge array `[2, 640000]` of source and destination
  node numbers, and return for every node the mean of `U[src e, :] · V` over the edges `e` into it (an isolated node's
  divisor is 1).  The reference forms the 200000 × 128 product `U · V` first, gathers and sums its rows per
  destination, and divides by the edge count last.  The kernel sums the 16-wide rows of `U` per destination on the host,
  takes the reciprocal of the count, and leaves to its one pipelined region — twenty row blocks of 10000 nodes — the
  scaling of the summed rows and their product with `V`.

  The two results are the arrangements `sumFirst` and `contractFirst` of MeanAggSpec: equal for real entries because a
  finite sum commutes with the product by `V` and with the division by a nonzero real count.  The precondition (every
  float entry finite) supplies the real entries; both programs read the source and destination columns off the edge
  array by the same operations, so the same edges enter the same sums on both sides.

  The modules: LibScatter (a row gather and a segment sum read at an index), MeanAggSpec (the two arrangements and the
  law), RefValue (the reference's result is `contractFirst`), KernelHost (what the region finds in its input arrays),
  KernelValue (the region's result array is `sumFirst`), FiniteInputs (the precondition read back).  The idealization
  rewrote nothing, so nothing is owed for it.
-/
import proofs.«138170_j24189255811345_1_alg».proof.Defs
import proofs.«138170_j24189255811345_1_alg».proof.Proof.Gen.Kernel
import proofs.«138170_j24189255811345_1_alg».proof.Proof.Gen.Kernel.Skeleton
import proofs.«138170_j24189255811345_1_alg».proof.Proof.Gen.Kernel.Launch
import proofs.«138170_j24189255811345_1_alg».proof.Proof.Gen.Kernel.Points
import proofs.«138170_j24189255811345_1_alg».proof.Proof.Gen.Kernel.Frame
import proofs.«138170_j24189255811345_1_alg».proof.Proof.Gen.KernelIdeal
import proofs.«138170_j24189255811345_1_alg».proof.Proof.Gen.KernelIdeal.Skeleton
import proofs.«138170_j24189255811345_1_alg».proof.Proof.Gen.KernelIdeal.Launch
import proofs.«138170_j24189255811345_1_alg».proof.Proof.Gen.KernelIdeal.Points
import proofs.«138170_j24189255811345_1_alg».proof.Proof.Gen.KernelIdeal.Frame
import proofs.«138170_j24189255811345_1_alg».proof.Proof.Gen.ReferenceIdeal
import proofs.«138170_j24189255811345_1_alg».proof.Proof.Gen.Pre_finite_inputs
import proofs.«138170_j24189255811345_1_alg».proof.Proof.Gen.KernelIdeal.Value
import proofs.«138170_j24189255811345_1_alg».proof.Proof.Gen.ReferenceIdeal.Run
import proofs.«138170_j24189255811345_1_alg».proof.Proof.Gen.ReferenceIdeal.Read
import proofs.«138170_j24189255811345_1_alg».proof.Proof.MeanAggSpec
import proofs.«138170_j24189255811345_1_alg».proof.Proof.RefValue
import proofs.«138170_j24189255811345_1_alg».proof.Proof.KernelValue
import proofs.«138170_j24189255811345_1_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the extended reals. -/
theorem preserves : Cert.preserves_Kernel_KernelIdeal := trivial

/-- The kernel's result array is `sumFirst` of the arguments, the reference's `contractFirst` of the same arguments;
    under the precondition the entries are real and the two are one function. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2]
  obtain ⟨hU, hV⟩ := Cert.FiniteInputs.inputs_real _ _ _ (hpre c)
  exact (Cert.MeanAgg.sumFirst_eq_contractFirst _ _ _ _ hU hV).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
